-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S256x40 .f32) (main_arg10 : FVec F S40 .f32) (main_v33 : IVec S_ 1) : IVec S_ 1 :=
  let main_v34 : FVec F S256x40 .f32 := Host.absf main_arg9
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S128 .f32) (main_arg7 : FVec F S128x256 .f32) (main_arg8 : FVec F S256 .f32) (main_arg9 : FVec F S256x40 .f32) (main_arg10 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x256 .f32) (main_arg8 : FVec F S256 .f32) (main_arg9 : FVec F S256x40 .f32) (main_arg10 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x256 : Shape := ⟨2, ![1, 256]⟩
abbrev S1x40 : Shape := ⟨2, ![1, 40]⟩
abbrev S50000x40 : Shape := ⟨2, ![50000, 40]⟩
abbrev S5000x40 : Shape := ⟨2, ![5000, 40]⟩
abbrev S5000x256 : Shape := ⟨2, ![5000, 256]⟩

abbrev nBuf : Space → Nat
  | .hbm => 74
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x40, .f32⟩
  | .hbm, ⟨10, _⟩ => ⟨S40, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x128, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .bf16⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S128x128, .bf16⟩
  | .hbm, ⟨48, _⟩ => ⟨S50000x1, .f32⟩
  | .hbm, ⟨49, _⟩ => ⟨S50000x1, .f32⟩
  | .hbm, ⟨50, _⟩ => ⟨S1x128, .f32⟩
  | .hbm, ⟨51, _⟩ => ⟨S50000x128, .bf16⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .bf16⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S128x128, .bf16⟩
  | .hbm, ⟨67, _⟩ => ⟨S128x256, .bf16⟩
  | .hbm, ⟨68, _⟩ => ⟨S256x40, .bf16⟩
  | .hbm, ⟨69, _⟩ => ⟨S50000x1, .f32⟩
  | .hbm, ⟨70, _⟩ => ⟨S1x128, .f32⟩
  | .hbm, ⟨71, _⟩ => ⟨S1x256, .f32⟩
  | .hbm, ⟨72, _⟩ => ⟨S1x40, .f32⟩
  | .hbm, ⟨73, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .bf16⟩
  | .local _ .vmem, ⟨15, _⟩ => ⟨S1x128, .f32⟩
  | .local _ .vmem, ⟨16, _⟩ => ⟨S128x256, .bf16⟩
  | .local _ .vmem, ⟨17, _⟩ => ⟨S1x256, .f32⟩
  | .local _ .vmem, ⟨18, _⟩ => ⟨S256x40, .bf16⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x40 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  shapeCasts_S256_S1x256 : S256.ShapeCasts S1x256
  shapeCasts_S40_S1x40 : S40.ShapeCasts S1x40
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .bf16 = 32 ∨ (Rect.block (s := S128x256) S128x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x40.size a ≤ S256x40.size a
  hwx1_6 : ∀ i : grid1.Coords, EltTy.bits .bf16 = 32 ∨ (Rect.block (s := S256x40) S256x40.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x40.size a ≤ S1x40.size a
  hwx1_7 : ∀ i : grid1.Coords, EltTy.bits .f32 = 32 ∨ (Rect.block (s := S1x40) S1x40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x40.size a ≤ S50000x40.size a
  hwx1_8 : ∀ i : grid1.Coords, EltTy.bits .f32 = 32 ∨ (Rect.block (s := S50000x40) S5000x40.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S256x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S1x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S5000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x256 : Shape := ⟨2, ![50000, 256]⟩
abbrev S1x256 : Shape := ⟨2, ![1, 256]⟩
abbrev S50000x40 : Shape := ⟨2, ![50000, 40]⟩
abbrev S1x40 : Shape := ⟨2, ![1, 40]⟩

abbrev nBuf : Space → Nat
  | .hbm => 123
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x40, .f32⟩
  | .hbm, ⟨10, _⟩ => ⟨S40, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x256, .f32⟩
  | .hbm, ⟨100, _⟩ => ⟨S1x256, .f32⟩
  | .hbm, ⟨101, _⟩ => ⟨S50000x256, .f32⟩
  | .hbm, ⟨102, _⟩ => ⟨S50000x256, .f32⟩
  | .hbm, ⟨103, _⟩ => ⟨S_, .f32⟩
  | .hbm, ⟨104, _⟩ => ⟨S_, .f32⟩
  | .hbm, ⟨105, _⟩ => ⟨S50000x256, .f32⟩
  | .hbm, ⟨106, _⟩ => ⟨S50000x256, .i1⟩
  | .hbm, ⟨107, _⟩ => ⟨S_, .f32⟩
  | .hbm, ⟨108, _⟩ => ⟨S50000x256, .f32⟩
  | .hbm, ⟨109, _⟩ => ⟨S50000x256, .f32⟩
  | .hbm, ⟨110, _⟩ => ⟨S50000x256, .f32⟩
  | .hbm, ⟨111, _⟩ => ⟨S50000x40, .f32⟩
  | .hbm, ⟨112, _⟩ => ⟨S1x40, .f32⟩
  | .hbm, ⟨113, _⟩ => ⟨S50000x40, .f32⟩
  | .hbm, ⟨114, _⟩ => ⟨S50000x40, .f32⟩
  | .hbm, ⟨115, _⟩ => ⟨S_, .f32⟩
  | .hbm, ⟨116, _⟩ => ⟨S_, .f32⟩
  | .hbm, ⟨117, _⟩ => ⟨S50000x40, .f32⟩
  | .hbm, ⟨118, _⟩ => ⟨S50000x40, .i1⟩
  | .hbm, ⟨119, _⟩ => ⟨S_, .f32⟩
  | .hbm, ⟨120, _⟩ => ⟨S50000x40, .f32⟩
  | .hbm, ⟨121, _⟩ => ⟨S50000x40, .f32⟩
  | .hbm, ⟨122, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_cst : Ref sig .tc := ⟨.hbm, 96, rfl⟩
abbrev main_call1_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_call3_cst : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v77 : Ref sig .tc := ⟨.hbm, 122, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S50000x40 : S_.BroadcastsInDim S50000x40 (![] : Fin 0 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  dot_S50000x256_S256x40_S50000x40_1_0_0_1_n_n_wf : DotDims.WF S50000x256 S256x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KernelRun.lean ====
/-
  The idealized kernel program's run with its result named: every weakly fair execution from a launch memory
  terminates without a fault, the argument arrays unchanged, and the result array holds what the second region's
  write-backs leave in it — the last boundary's contents of the fold through @main (host operations, first region,
  host operations, second region).  It is the frame's run with the result buffer read off the same final thread
  state as the arguments.
-/
import proofs.«132696_j51771535786035_2_alg».proof.Proof.KernelIdealFrame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v51) = W4 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v51 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Run

end
-- ==== Proof.DenseSpec.lean ====
/-
  The dense arithmetic of one node's row, on the extended reals: a linear map with its bias, the positive part,
  and the leaky slope.  Every array statement about either program is reduced to these row functions.
-/
import Idealize.ShloMosaic.PureOps.Ideal
import Idealize.ShloMosaic.Lib.ValueIdx

noncomputable section

open scoped BigOperators

namespace Cert.Bridge

open Idealize.ShloMosaic Idealize.ShloMosaic.ValueIdx

/-- The positive part: the larger of x and the zero word's value. -/
def relu (x : EReal) : EReal := max x (Ideal.ofBits .f32 0x00000000#32)

/-- x where x ≥ 0 (the zero word's value), the slope word's value times x elsewhere. -/
def leaky (x : EReal) : EReal :=
  Scalar.select (FloatOps.cmpf (F := Ideal) (φ := .f32) .oge x (Ideal.ofBits .f32 0x00000000#32)) x
    (Ideal.ofBits .f32 0x3C23D70A#32 * x)

/-- Entry q of a row through a linear map with bias: (∑ k, x k · W k q) + b q. -/
def lin {K B : Nat} (x : Fin K → EReal) (W : (⟨2, ![K, B]⟩ : Shape).Idx → EReal) (b : Fin B → EReal) (q : Fin B) : EReal :=
  (∑ k : Fin K, x k * W (ix2 k q)) + b q

/-- Entry q of a graph convolution's dense half on one node: the aggregated row h scaled by the node's factor s,
    through the linear map with bias, positive part. -/
def convRow {K B : Nat} (h : Fin K → EReal) (s : EReal) (W : (⟨2, ![K, B]⟩ : Shape).Idx → EReal) (b : Fin B → EReal)
    (q : Fin B) : EReal :=
  relu (lin (fun j => h j * s) W b q)

/-- Entry q of the head on one node's convolved row g: two linear maps, each followed by the leaky slope. -/
def headRow {K H C : Nat} (g : Fin K → EReal) (Wd1 : (⟨2, ![K, H]⟩ : Shape).Idx → EReal) (bd1 : Fin H → EReal)
    (Wd2 : (⟨2, ![H, C]⟩ : Shape).Idx → EReal) (bd2 : Fin C → EReal) (q : Fin C) : EReal :=
  leaky (lin (fun h => leaky (lin g Wd1 bd1 h)) Wd2 bd2 q)

end Cert.Bridge

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.KernelDense.lean ====
/-
  The two kernel bodies' arithmetic read at an index, on the extended reals.  Entry (p, q) of the first body's stored
  block is the convolution's dense half of row p (the aggregated row scaled by the node's incoming factor, through the
  linear map with bias, positive part) times the node's outgoing factor; entry (p, q) of the second body's stored block
  is the head (two linear maps, each followed by the leaky slope) of that dense half of row p.
-/
import proofs.«132696_j51771535786035_2_alg».proof.Proof.Gen.KernelIdeal.Skeleton
import proofs.«132696_j51771535786035_2_alg».proof.Proof.DenseSpec
import proofs.«132696_j51771535786035_2_alg».proof.Proof.LibPlainDot
import Idealize.ShloMosaic.Lib.ValueLayout

noncomputable section

open scoped BigOperators

namespace Cert.KernelIdeal.Dense

open Cert.KernelIdeal Cert.KernelIdeal.Gen Cert.Bridge Idealize.ShloMosaic Idealize.ShloMosaic.ValueIdx

/-! ## The operation groups at an index, for any sizes -/

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A block scaled row by row by a column, narrowed: entry (p, k) is the block's entry times the column's entry of
    row p. -/
theorem scaled_apply {A K : ℕ} (x : FVec Ideal ⟨2, ![A, K]⟩ .f32) (hx : (⟨2, ![A, K]⟩ : Shape).ShapeCasts ⟨2, ![A, K]⟩)
    (s : FVec Ideal ⟨2, ![A, 1]⟩ .f32) (hs : (⟨2, ![A, 1]⟩ : Shape).ShapeCasts ⟨2, ![A, 1]⟩)
    (hb : (⟨2, ![A, 1]⟩ : Shape).Broadcasts ⟨2, ![A, K]⟩) (p : Fin A) (k : Fin K) :
    mulf (shapeCast ⟨2, ![A, K]⟩ x hx) (broadcastTo ⟨2, ![A, K]⟩ (shapeCast ⟨2, ![A, 1]⟩ s hs) hb) (ix2 p k)
      = x (ix2 p k) * s (ix2 p 0) := by
  rw [mulf_apply, shapeCast_self, shapeCast_self, broadcastTo_a1_ab_apply]

/-- A plain matmul into the zero accumulator plus a bias row: entry (p, q) is the linear map with bias of the left
    operand's row p. -/
theorem lin_apply {A K B : ℕ} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![A, K]⟩ φ₁) (W : FVec Ideal ⟨2, ![K, B]⟩ φ₂)
    (hW : (⟨2, ![K, B]⟩ : Shape).ShapeCasts ⟨2, ![K, B]⟩)
    (bias : FVec Ideal ⟨2, ![1, B]⟩ .f32) (hc : (⟨2, ![1, B]⟩ : Shape).ShapeCasts ⟨2, ![1, B]⟩)
    (hb : (⟨2, ![1, B]⟩ : Shape).Broadcasts ⟨2, ![A, B]⟩) (p : Fin A) (q : Fin B) :
    addf (matmul d none lhs (shapeCast ⟨2, ![K, B]⟩ W hW) (constant ⟨2, ![A, B]⟩ .f32 0x00000000#32))
        (broadcastTo ⟨2, ![A, B]⟩ (shapeCast ⟨2, ![1, B]⟩ bias hc) hb) (ix2 p q)
      = lin (fun k : Fin K => lhs (ix2 p k)) W (fun c : Fin B => bias (ix2 0 c)) q := by
  rw [addf_apply, shapeCast_self, shapeCast_self, broadcastTo_1b_ab_apply]
  exact congrArg (· + bias (ix2 0 q)) (matmul_zero_plain d hlc hrc hln hrn hlb hrb none lhs W p q)

/-- The maximum with the zero word's splat is the positive part. -/
theorem relu_apply {s : Shape} (x : FVec Ideal s .f32) (i : s.Idx) :
    maximumf x (broadcast s (Scalar.ofBits .f32 0x00000000#32)) i = relu (x i) := rfl

/-- The select on "at least the zero word" between the entry and the slope word's multiple of it is the leaky slope. -/
theorem leaky_apply {s : Shape} (x : FVec Ideal s .f32) (i : s.Idx) :
    select (cmpf .oge x (broadcast s (Scalar.ofBits .f32 0x00000000#32))) x
        (mulf (broadcast s (Scalar.ofBits .f32 0x3C23D70A#32)) x) i = leaky (x i) := rfl

/-! ## The two bodies -/

/-- The first body's stored block at (p, q): the dense half of the convolution on row p, times the node's outgoing
    factor. -/
theorem stage1_apply (x0 : Vec Ideal S5000x128 .f32) (x1 : Vec Ideal S5000x1 .f32) (x3 : Vec Ideal S128x128 .bf16)
    (x4 : Vec Ideal S1x128 .f32) (x2 : Vec Ideal S5000x1 .f32) (p : Fin 5000) (q : Fin 128) :
    k0_pay1 (F := Ideal) x0 x1 x3 x4 x2 (ix2 p q)
      = convRow (fun j : Fin 128 => x0 (ix2 p j)) (x1 (ix2 p 0)) x3 (fun c : Fin 128 => x4 (ix2 0 c)) q * x2 (ix2 p 0) := by
  unfold k0_pay1
  rw [truncf_apply, mulf_apply, relu_apply,
    lin_apply dot_S5000x128_S128x128_S5000x128_1_0_0_1_n_n rfl rfl rfl rfl rfl rfl,
    broadcastTo_a1_ab_apply]
  simp only [truncf_apply, scaled_apply]
  rw [shapeCast_self]
  rfl

/-- The second body's stored block at (p, q): the head of the dense half of the convolution on row p. -/
theorem stage2_apply (x0 : Vec Ideal S5000x128 .f32) (x1 : Vec Ideal S5000x1 .f32) (x2 : Vec Ideal S128x128 .bf16)
    (x3 : Vec Ideal S1x128 .f32) (x4 : Vec Ideal S128x256 .bf16) (x5 : Vec Ideal S1x256 .f32)
    (x6 : Vec Ideal S256x40 .bf16) (x7 : Vec Ideal S1x40 .f32) (p : Fin 5000) (q : Fin 40) :
    k1_pay1 (F := Ideal) (k1_pay2 (F := Ideal) x0 x1 x2 x3 x4 x5 x6 x7) (ix2 p q)
      = headRow (fun k : Fin 128 => convRow (fun j : Fin 128 => x0 (ix2 p j)) (x1 (ix2 p 0)) x2
            (fun c : Fin 128 => x3 (ix2 0 c)) k)
          x4 (fun h : Fin 256 => x5 (ix2 0 h)) x6 (fun c : Fin 40 => x7 (ix2 0 c)) q := by
  unfold k1_pay1
  rw [leaky_apply]
  unfold k1_pay2
  rw [lin_apply dot_S5000x256_S256x40_S5000x40_1_0_0_1_n_n rfl rfl rfl rfl rfl rfl]
  simp only [truncf_apply, leaky_apply, relu_apply, scaled_apply,
    lin_apply dot_S5000x128_S128x256_S5000x256_1_0_0_1_n_n rfl rfl rfl rfl rfl rfl,
    lin_apply dot_S5000x128_S128x128_S5000x128_1_0_0_1_n_n rfl rfl rfl rfl rfl rfl]
  rfl

end Cert.KernelIdeal.Dense

end
-- ==== Proof.KernelValue.lean ====
/-
  What each of the two regions leaves in its result array, as one function of the arrays the region finds.

  A region's grid has ten points; point t reads rows 5000·t … 5000·t + 4999 of the row-blocked operands (the
  aggregated features and the per-node factor columns), the whole of every weight matrix and bias row, and writes
  back rows 5000·t … 5000·t + 4999 of the result.  Entry (p, q) of the block the body stores depends only on row p
  of the row-blocked inputs, so the block is the restriction of one array function: row n of the result is the
  dense arithmetic of row n of the aggregated features.  The ten blocks cover the 50000 rows (row r lies in the
  block of point r / 5000), so after the write-backs the result array is that function everywhere.
-/
import proofs.«132696_j51771535786035_2_alg».proof.Proof.KernelIdealFrame
import proofs.«132696_j51771535786035_2_alg».proof.Proof.DenseSpec
import proofs.«132696_j51771535786035_2_alg».proof.Proof.KernelDense
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Dense Cert.Bridge
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin offset. -/
theorem hz : (![0, 0] : Fin 2 → Nat) = fun _ => 0 := funext fun a => by fin_cases a <;> rfl

/-- The first region's array function: a node's aggregated row through the convolution's dense half, times the
    node's out-degree factor (the scaling the next aggregation starts with). -/
def layer1 (h : S50000x128.Idx → EReal) (sIn sOut : S50000x1.Idx → EReal) (W : S128x128.Idx → EReal) (b : S1x128.Idx → EReal) :
    S50000x128.Idx → EReal :=
  fun i => convRow (fun j : Fin 128 => h (ix2 (show Fin 50000 from i 0) j)) (sIn (ix2 (show Fin 50000 from i 0) 0)) W (fun c : Fin 128 => b (ix2 0 c)) (show Fin 128 from i 1)
    * sOut (ix2 (show Fin 50000 from i 0) 0)

/-- The first region's index maps over its grid: the row-blocked windows sit at block row t, the others at the origin. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry y of a block of the first region's result is entry i of the array function, when row (y 0) of the block's
    inputs is row (i 0) of the arrays and the columns agree. -/
theorem block0 (X0 : S50000x128.Idx → EReal) (X1 X2 : S50000x1.Idx → EReal) (X3 : S128x128.Idx → EReal) (X4 : S1x128.Idx → EReal)
    (x0 : Vec Ideal S5000x128 .f32) (x1 x2 : Vec Ideal S5000x1 .f32) (x3 : Vec Ideal S128x128 .bf16) (x4 : Vec Ideal S1x128 .f32)
    (y : S5000x128.Idx) (i : S50000x128.Idx)
    (h0 : ∀ j : Fin 128, x0 (ix2 (show Fin 5000 from y 0) j) = X0 (ix2 (show Fin 50000 from i 0) j))
    (h1 : x1 (ix2 (show Fin 5000 from y 0) 0) = X1 (ix2 (show Fin 50000 from i 0) 0))
    (h2 : x2 (ix2 (show Fin 5000 from y 0) 0) = X2 (ix2 (show Fin 50000 from i 0) 0))
    (h3 : x3 = X3) (h4 : x4 = X4) (hq : (show Fin 128 from y 1) = (show Fin 128 from i 1)) :
    k0_pay1 (F := Ideal) x0 x1 x3 x4 x2 y = layer1 X0 X1 X2 X3 X4 i := by
  obtain ⟨p, q, rfl⟩ : ∃ (p : Fin 5000) (q : Fin 128), y = ix2 p q := ⟨y 0, y 1, eq_ix2 y⟩
  subst h3 h4
  rw [stage1_apply]
  unfold layer1
  simp only [h0, h1, h2]
  rw [show q = (show Fin 128 from i 1) from hq]

/-- What point t of the first region writes back is block t of the array function. -/
theorem flushed0 (c : Dev nD) (t : Fin cfg0.N) :
    (dat0 V c).flushed 5 t = ((cfg0.win 5).blk t).view.read (Elt Ideal)
      (layer1 (V c main_v27) (V c main_v29) (V c main_v30) (V c main_v28) (V c main_v31)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz, View.ld_unit_zero (S := S128x128) hz, View.ld_unit_zero (S := S1x128) hz]
  obtain ⟨e00, e01, e10, e11, e20, e21, e30, e31, e40, e41, e50, e51⟩ := idx_facts0 t
  funext y
  show k0_pay1 (F := Ideal) (iblk0 V c 0 t) (iblk0 V c 1 t) (iblk0 V c 3 t) (iblk0 V c 4 t) (iblk0 V c 2 t) y
    = layer1 (V c main_v27) (V c main_v29) (V c main_v30) (V c main_v28) (V c main_v31) (((cfg0.win 5).blk t).view.emb y)
  refine block0 _ _ _ _ _ _ _ _ _ _ y _ ?_ ?_ ?_ ?_ ?_ ?_
  · intro j
    show V c main_v27 (((cfg0.win 0).blk t).view.emb (ix2 (show Fin 5000 from y 0) j)) = V c main_v27 (ix2 (show Fin 50000 from (((cfg0.win 5).blk t).view.emb y) 0) j)
    refine congrArg (V c main_v27) ?_
    funext a; apply Fin.ext
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 128 + 1 * j.val = j.val; omega
  · show V c main_v29 (((cfg0.win 1).blk t).view.emb (ix2 (show Fin 5000 from y 0) 0)) = V c main_v29 (ix2 (show Fin 50000 from (((cfg0.win 5).blk t).view.emb y) 0) 0)
    refine congrArg (V c main_v29) ?_
    funext a; apply Fin.ext
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 1 + 1 * 0 = 0; omega
  · show V c main_v30 (((cfg0.win 2).blk t).view.emb (ix2 (show Fin 5000 from y 0) 0)) = V c main_v30 (ix2 (show Fin 50000 from (((cfg0.win 5).blk t).view.emb y) 0) 0)
    refine congrArg (V c main_v30) ?_
    funext a; apply Fin.ext
    match a with
    | ⟨0, _⟩ => show win0_2.index t (0 : Fin 2) * 5000 + 1 * (y 0).val = win0_5.index t (0 : Fin 2) * 5000 + 1 * (y 0).val; omega
    | ⟨1, _⟩ => show win0_2.index t (1 : Fin 2) * 1 + 1 * 0 = 0; omega
  · funext z
    show V c main_v28 (((cfg0.win 3).blk t).view.emb z) = V c main_v28 z
    refine congrArg (V c main_v28) ?_
    funext a; apply Fin.ext
    match a with
    | ⟨0, _⟩ => show win0_3.index t (0 : Fin 2) * 128 + 1 * (z 0).val = (z 0).val; omega
    | ⟨1, _⟩ => show win0_3.index t (1 : Fin 2) * 128 + 1 * (z 1).val = (z 1).val; omega
  · funext z
    show V c main_v31 (((cfg0.win 4).blk t).view.emb z) = V c main_v31 z
    refine congrArg (V c main_v31) ?_
    funext a; apply Fin.ext
    match a with
    | ⟨0, _⟩ => show win0_4.index t (0 : Fin 2) * 1 + 1 * (z 0).val = (z 0).val; omega
    | ⟨1, _⟩ => show win0_4.index t (1 : Fin 2) * 128 + 1 * (z 1).val = (z 1).val; omega
  · apply Fin.ext
    show (y 1).val = win0_5.index t (1 : Fin 2) * 128 + 1 * (y 1).val
    omega

/-- An index of the array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v32).slice (win0_5.rect t)).set ↔ _
  rw [View.set_slice_whole, Rect.mem_set_unit]
  exact Iff.rfl

/-- Row r of the array lies in the block of point r / 5000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨e00, e01, e10, e11, e20, e21, e30, e31, e40, e41, e50, e51⟩ := idx_facts0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first region's result array after its write-backs. -/
theorem final0 (c : Dev nD) : (dat0 V c).arrAt 5 cfg0.N
    = layer1 (V c main_v27) (V c main_v29) (V c main_v30) (V c main_v28) (V c main_v31) :=
  (dat0 V c).arrAt_eq_of_cover 5 _ (fun t _ => flushed0 V c t) cover0

/-- The second region's array function: the head on the convolved row of each node. -/
def head1 (h : S50000x128.Idx → EReal) (sIn : S50000x1.Idx → EReal) (W2 : S128x128.Idx → EReal) (b2 : S1x128.Idx → EReal)
    (Wd1 : S128x256.Idx → EReal) (bd1 : S1x256.Idx → EReal) (Wd2 : S256x40.Idx → EReal) (bd2 : S1x40.Idx → EReal) :
    S50000x40.Idx → EReal :=
  fun i => headRow (fun k : Fin 128 => convRow (fun j : Fin 128 => h (ix2 (show Fin 50000 from i 0) j))
      (sIn (ix2 (show Fin 50000 from i 0) 0)) W2 (fun c : Fin 128 => b2 (ix2 0 c)) k)
    Wd1 (fun h' : Fin 256 => bd1 (ix2 0 h')) Wd2 (fun c : Fin 40 => bd2 (ix2 0 c)) (show Fin 40 from i 1)

/-- The second region's index maps over its grid. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row (y 0) of the aggregated-features block at point t is row 5000·t + (y 0) of the array, which is the row of
    the result block's entry y in the result array. -/
theorem rows1_0 (c : Dev nD) (t : Fin cfg1.N) (y : S5000x40.Idx) (j : Fin 128) :
    iblk1 V c 0 t (ix2 (show Fin 5000 from y 0) j) = V c main_v43 (ix2 (show Fin 50000 from (((cfg1.win 8).blk t).view.emb y) 0) j) := by
  have e00 : win1_0.index t (0 : Fin 2) = t.val := (idx_facts1 t).1
  have e01 : win1_0.index t (1 : Fin 2) = 0 := (idx_facts1 t).2.1
  have e80 : win1_8.index t (0 : Fin 2) = t.val := (idx_facts1 t).2.2.2.2.2.2.2.2.2.2.2.2.2.2.2.2.1
  show V c main_v43 (((cfg1.win 0).blk t).view.emb (ix2 (show Fin 5000 from y 0) j)) = V c main_v43 (ix2 (show Fin 50000 from (((cfg1.win 8).blk t).view.emb y) 0) j)
  refine congrArg (V c main_v43) ?_
  funext a; apply Fin.ext
  match a with
  | ⟨0, _⟩ => show win1_0.index t (0 : Fin 2) * 5000 + 1 * (y 0).val = win1_8.index t (0 : Fin 2) * 5000 + 1 * (y 0).val; omega
  | ⟨1, _⟩ => show win1_0.index t (1 : Fin 2) * 128 + 1 * j.val = j.val; omega

/-- The same for the in-degree factor column. -/
theorem rows1_1 (c : Dev nD) (t : Fin cfg1.N) (y : S5000x40.Idx) :
    iblk1 V c 1 t (ix2 (show Fin 5000 from y 0) 0) = V c main_v47 (ix2 (show Fin 50000 from (((cfg1.win 8).blk t).view.emb y) 0) 0) := by
  have e10 : win1_1.index t (0 : Fin 2) = t.val := (idx_facts1 t).2.2.1
  have e11 : win1_1.index t (1 : Fin 2) = 0 := (idx_facts1 t).2.2.2.1
  have e80 : win1_8.index t (0 : Fin 2) = t.val := (idx_facts1 t).2.2.2.2.2.2.2.2.2.2.2.2.2.2.2.2.1
  show V c main_v47 (((cfg1.win 1).blk t).view.emb (ix2 (show Fin 5000 from y 0) 0)) = V c main_v47 (ix2 (show Fin 50000 from (((cfg1.win 8).blk t).view.emb y) 0) 0)
  refine congrArg (V c main_v47) ?_
  funext a; apply Fin.ext
  match a with
  | ⟨0, _⟩ => show win1_1.index t (0 : Fin 2) * 5000 + 1 * (y 0).val = win1_8.index t (0 : Fin 2) * 5000 + 1 * (y 0).val; omega
  | ⟨1, _⟩ => show win1_1.index t (1 : Fin 2) * 1 + 1 * 0 = 0; omega

/-- The block of window 2 at any point is the whole array: the window sits at the origin. -/
theorem whole1_2 (c : Dev nD) (t : Fin cfg1.N) : iblk1 V c 2 t = V c main_v44 := by
  have e0 : win1_2.index t (0 : Fin 2) = 0 := (idx_facts1 t).2.2.2.2.1
  have e1 : win1_2.index t (1 : Fin 2) = 0 := (idx_facts1 t).2.2.2.2.2.1
  funext z
  show V c main_v44 (((cfg1.win 2).blk t).view.emb z) = V c main_v44 z
  refine congrArg (V c main_v44) ?_
  funext a; apply Fin.ext
  match a with
  | ⟨0, _⟩ => show win1_2.index t (0 : Fin 2) * 128 + 1 * (z 0).val = (z 0).val; omega
  | ⟨1, _⟩ => show win1_2.index t (1 : Fin 2) * 128 + 1 * (z 1).val = (z 1).val; omega

/-- The block of window 3 at any point is the whole array: the window sits at the origin. -/
theorem whole1_3 (c : Dev nD) (t : Fin cfg1.N) : iblk1 V c 3 t = V c main_v48 := by
  have e0 : win1_3.index t (0 : Fin 2) = 0 := (idx_facts1 t).2.2.2.2.2.2.1
  have e1 : win1_3.index t (1 : Fin 2) = 0 := (idx_facts1 t).2.2.2.2.2.2.2.1
  funext z
  show V c main_v48 (((cfg1.win 3).blk t).view.emb z) = V c main_v48 z
  refine congrArg (V c main_v48) ?_
  funext a; apply Fin.ext
  match a with
  | ⟨0, _⟩ => show win1_3.index t (0 : Fin 2) * 1 + 1 * (z 0).val = (z 0).val; omega
  | ⟨1, _⟩ => show win1_3.index t (1 : Fin 2) * 128 + 1 * (z 1).val = (z 1).val; omega

/-- The block of window 4 at any point is the whole array: the window sits at the origin. -/
theorem whole1_4 (c : Dev nD) (t : Fin cfg1.N) : iblk1 V c 4 t = V c main_v45 := by
  have e0 : win1_4.index t (0 : Fin 2) = 0 := (idx_facts1 t).2.2.2.2.2.2.2.2.1
  have e1 : win1_4.index t (1 : Fin 2) = 0 := (idx_facts1 t).2.2.2.2.2.2.2.2.2.1
  funext z
  show V c main_v45 (((cfg1.win 4).blk t).view.emb z) = V c main_v45 z
  refine congrArg (V c main_v45) ?_
  funext a; apply Fin.ext
  match a with
  | ⟨0, _⟩ => show win1_4.index t (0 : Fin 2) * 128 + 1 * (z 0).val = (z 0).val; omega
  | ⟨1, _⟩ => show win1_4.index t (1 : Fin 2) * 256 + 1 * (z 1).val = (z 1).val; omega

/-- The block of window 5 at any point is the whole array: the window sits at the origin. -/
theorem whole1_5 (c : Dev nD) (t : Fin cfg1.N) : iblk1 V c 5 t = V c main_v49 := by
  have e0 : win1_5.index t (0 : Fin 2) = 0 := (idx_facts1 t).2.2.2.2.2.2.2.2.2.2.1
  have e1 : win1_5.index t (1 : Fin 2) = 0 := (idx_facts1 t).2.2.2.2.2.2.2.2.2.2.2.1
  funext z
  show V c main_v49 (((cfg1.win 5).blk t).view.emb z) = V c main_v49 z
  refine congrArg (V c main_v49) ?_
  funext a; apply Fin.ext
  match a with
  | ⟨0, _⟩ => show win1_5.index t (0 : Fin 2) * 1 + 1 * (z 0).val = (z 0).val; omega
  | ⟨1, _⟩ => show win1_5.index t (1 : Fin 2) * 256 + 1 * (z 1).val = (z 1).val; omega

/-- The block of window 6 at any point is the whole array: the window sits at the origin. -/
theorem whole1_6 (c : Dev nD) (t : Fin cfg1.N) : iblk1 V c 6 t = V c main_v46 := by
  have e0 : win1_6.index t (0 : Fin 2) = 0 := (idx_facts1 t).2.2.2.2.2.2.2.2.2.2.2.2.1
  have e1 : win1_6.index t (1 : Fin 2) = 0 := (idx_facts1 t).2.2.2.2.2.2.2.2.2.2.2.2.2.1
  funext z
  show V c main_v46 (((cfg1.win 6).blk t).view.emb z) = V c main_v46 z
  refine congrArg (V c main_v46) ?_
  funext a; apply Fin.ext
  match a with
  | ⟨0, _⟩ => show win1_6.index t (0 : Fin 2) * 256 + 1 * (z 0).val = (z 0).val; omega
  | ⟨1, _⟩ => show win1_6.index t (1 : Fin 2) * 40 + 1 * (z 1).val = (z 1).val; omega

/-- The block of window 7 at any point is the whole array: the window sits at the origin. -/
theorem whole1_7 (c : Dev nD) (t : Fin cfg1.N) : iblk1 V c 7 t = V c main_v50 := by
  have e0 : win1_7.index t (0 : Fin 2) = 0 := (idx_facts1 t).2.2.2.2.2.2.2.2.2.2.2.2.2.2.1
  have e1 : win1_7.index t (1 : Fin 2) = 0 := (idx_facts1 t).2.2.2.2.2.2.2.2.2.2.2.2.2.2.2.1
  funext z
  show V c main_v50 (((cfg1.win 7).blk t).view.emb z) = V c main_v50 z
  refine congrArg (V c main_v50) ?_
  funext a; apply Fin.ext
  match a with
  | ⟨0, _⟩ => show win1_7.index t (0 : Fin 2) * 1 + 1 * (z 0).val = (z 0).val; omega
  | ⟨1, _⟩ => show win1_7.index t (1 : Fin 2) * 40 + 1 * (z 1).val = (z 1).val; omega

/-- Entry y of a block of the second region's result is entry i of the array function, when row (y 0) of the
    block's inputs is row (i 0) of the arrays, the weights and bias rows are the whole arrays, and the columns agree. -/
theorem block1 (X0 : S50000x128.Idx → EReal) (X1 : S50000x1.Idx → EReal) (X2 : S128x128.Idx → EReal) (X3 : S1x128.Idx → EReal)
    (X4 : S128x256.Idx → EReal) (X5 : S1x256.Idx → EReal) (X6 : S256x40.Idx → EReal) (X7 : S1x40.Idx → EReal)
    (x0 : Vec Ideal S5000x128 .f32) (x1 : Vec Ideal S5000x1 .f32) (x2 : Vec Ideal S128x128 .bf16) (x3 : Vec Ideal S1x128 .f32)
    (x4 : Vec Ideal S128x256 .bf16) (x5 : Vec Ideal S1x256 .f32) (x6 : Vec Ideal S256x40 .bf16) (x7 : Vec Ideal S1x40 .f32)
    (y : S5000x40.Idx) (i : S50000x40.Idx)
    (h0 : ∀ j : Fin 128, x0 (ix2 (show Fin 5000 from y 0) j) = X0 (ix2 (show Fin 50000 from i 0) j))
    (h1 : x1 (ix2 (show Fin 5000 from y 0) 0) = X1 (ix2 (show Fin 50000 from i 0) 0))
    (h2 : x2 = X2) (h3 : x3 = X3) (h4 : x4 = X4) (h5 : x5 = X5) (h6 : x6 = X6) (h7 : x7 = X7)
    (hq : (show Fin 40 from y 1) = (show Fin 40 from i 1)) :
    k1_pay1 (F := Ideal) (k1_pay2 (F := Ideal) x0 x1 x2 x3 x4 x5 x6 x7) y = head1 X0 X1 X2 X3 X4 X5 X6 X7 i := by
  obtain ⟨p, q, rfl⟩ : ∃ (p : Fin 5000) (q : Fin 40), y = ix2 p q := ⟨y 0, y 1, eq_ix2 y⟩
  subst h2 h3 h4 h5 h6 h7
  rw [stage2_apply]
  unfold head1
  simp only [h0, h1]
  rw [show q = (show Fin 40 from i 1) from hq]

/-- What point t of the second region writes back is block t of the array function. -/
theorem flushed1 (c : Dev nD) (t : Fin cfg1.N) :
    (dat1 V c).flushed 8 t = ((cfg1.win 8).blk t).view.read (Elt Ideal)
      (head1 (V c main_v43) (V c main_v47) (V c main_v44) (V c main_v48) (V c main_v45) (V c main_v49) (V c main_v46) (V c main_v50)) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S128x128) hz, View.ld_unit_zero (S := S1x128) hz,
    View.ld_unit_zero (S := S128x256) hz, View.ld_unit_zero (S := S1x256) hz, View.ld_unit_zero (S := S256x40) hz, View.ld_unit_zero (S := S1x40) hz]
  have e81 : win1_8.index t (1 : Fin 2) = 0 := (idx_facts1 t).2.2.2.2.2.2.2.2.2.2.2.2.2.2.2.2.2
  funext y
  show k1_pay1 (F := Ideal) (k1_pay2 (F := Ideal) (iblk1 V c 0 t) (iblk1 V c 1 t) (iblk1 V c 2 t) (iblk1 V c 3 t) (iblk1 V c 4 t) (iblk1 V c 5 t) (iblk1 V c 6 t) (iblk1 V c 7 t)) y
    = head1 (V c main_v43) (V c main_v47) (V c main_v44) (V c main_v48) (V c main_v45) (V c main_v49) (V c main_v46) (V c main_v50) (((cfg1.win 8).blk t).view.emb y)
  refine block1 _ _ _ _ _ _ _ _ _ _ _ _ _ _ _ _ y _ (rows1_0 V c t y) (rows1_1 V c t y) (whole1_2 V c t) (whole1_3 V c t) (whole1_4 V c t) (whole1_5 V c t) (whole1_6 V c t) (whole1_7 V c t) ?_
  apply Fin.ext
  show (y 1).val = win1_8.index t (1 : Fin 2) * 40 + 1 * (y 1).val
  omega

/-- An index of the result array is in point t's block iff each coordinate is in the block's range on its axis. -/
theorem mem_blk1 (t : Fin cfg1.N) (i : S50000x40.Idx) :
    i ∈ ((cfg1.win 8).blk t).view.set ↔ ∀ a : Fin 2, win1_8.index t a * S5000x40.size a ≤ (i a).val ∧ (i a).val < win1_8.index t a * S5000x40.size a + S5000x40.size a := by
  show i ∈ ((View.whole main_v51).slice (win1_8.rect t)).set ↔ _
  rw [View.set_slice_whole, Rect.mem_set_unit]
  exact Iff.rfl

/-- Row r of the result lies in the block of point r / 5000. -/
theorem cover1 (i : S50000x40.Idx) : ∃ t : Fin cfg1.N, (cfg1.win 8).flush t = true ∧ i ∈ ((cfg1.win 8).blk t).view.set := by
  have hi0 : (i 0).val < 50000 := (i 0).isLt
  have hi1 : (i 1).val < 40 := (i 1).isLt
  have hN : grid1.N = 10 := N_1
  obtain ⟨t, ht⟩ : ∃ t : Fin cfg1.N, t.val = (i 0).val / 5000 := ⟨⟨(i 0).val / 5000, by show _ < grid1.N; omega⟩, rfl⟩
  have e80 : win1_8.index t (0 : Fin 2) = t.val := (idx_facts1 t).2.2.2.2.2.2.2.2.2.2.2.2.2.2.2.2.1
  have e81 : win1_8.index t (1 : Fin 2) = 0 := (idx_facts1 t).2.2.2.2.2.2.2.2.2.2.2.2.2.2.2.2.2
  refine ⟨t, flush1_8 t, ?_⟩
  rw [mem_blk1]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 40 ≤ (i 1).val ∧ (i 1).val < win1_8.index t (1 : Fin 2) * 40 + 40; omega

/-- The second region's result array after its write-backs. -/
theorem final1 (c : Dev nD) : (dat1 V c).arrAt 8 cfg1.N
    = head1 (V c main_v43) (V c main_v47) (V c main_v44) (V c main_v48) (V c main_v45) (V c main_v49) (V c main_v46) (V c main_v50) :=
  (dat1 V c).arrAt_eq_of_cover 8 _ (fun t _ => flushed1 V c t) cover1

end Cert.KernelIdeal.Val

end
-- ==== Proof.RefSpec.lean ====
/-
  The network both programs compute, written once as a function of the eleven argument arrays, with the host
  operations the reference is printed in.

  A node's out-degree (in-degree) is the number of edges that leave (enter) it: ones scattered and added at the
  edges' sources (targets).  A graph convolution scales each node's feature row by (max(out-degree, 1))^(-1/2),
  sums over every edge the scaled row of the edge's source into the edge's target, scales row n of the sums by
  (max(in-degree n, 1))^(-1/2), applies the linear map and the bias, and keeps the positive part.  The network is
  two such convolutions followed by two linear maps, each followed by x ↦ x if x ≥ 0 else 0.01·x (the f32
  nearest 0.01).  A negative edge end is read from the far end of the node axis when rows are gathered.
-/
import proofs.«132696_j51771535786035_2_alg».proof.Proof.Gen.ReferenceIdeal

noncomputable section

namespace Cert.Bridge

open Idealize.ShloMosaic Cert.ReferenceIdeal Cert.ReferenceIdeal.Facts₀

variable {F : FTy → Type} [FloatOps F]

/-- How many edges have node n at the given end: ones added at the ends' positions. -/
def degree (ends : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 ends)
    (broadcastInDim S800000 ![] bcast_S_S800000 (constant S_ .f32 0x3F800000#32))

/-- (max(degree, 1))^(-1/2), node by node. -/
def invSqrtDeg (ends : (⟨S800000, .i32⟩ : BufTy).Contents (Elt F)) : (⟨S50000, .f32⟩ : BufTy).Contents (Elt F) :=
  Host.rsqrt (maximumf (degree ends) (broadcastInDim S50000 ![] bcast_S_S50000 (constant S_ .f32 0x3F800000#32)))

/-- A per-node factor repeated along the 128 features. -/
def alongFeatures (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The row each edge gathers: its source, a negative one counted from the end of the node axis. -/
def gatherRows (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Row n of the result is the sum, over the edges into n, of the source's row of `X`. -/
def aggregate (X : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 X (gatherRows src))

/-- The aggregated, in-degree-scaled rows through the linear map, plus the bias, positive part. -/
def convDense (H : (⟨S50000x128, .f32⟩ : BufTy).Contents (Elt F)) (dst : (⟨S800000, .i32⟩ : BufTy).Contents (Elt F))
    (W : (⟨S128x128, .f32⟩ : BufTy).Contents (Elt F)) (b : (⟨S128, .f32⟩ : BufTy).Contents (Elt F)) :
    (⟨S50000x128, .f32⟩ : BufTy).Contents (Elt F) :=
  maximumf
    (addf (Host.dotGeneral dot_S50000x128_S128x128_S50000x128_1_0_0_1_n_n none (mulf H (alongFeatures (invSqrtDeg dst))) W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- One graph convolution. -/
def conv (X : (⟨S50000x128, .f32⟩ : BufTy).Contents (Elt F)) (src dst : (⟨S800000, .i32⟩ : BufTy).Contents (Elt F))
    (W : (⟨S128x128, .f32⟩ : BufTy).Contents (Elt F)) (b : (⟨S128, .f32⟩ : BufTy).Contents (Elt F)) :
    (⟨S50000x128, .f32⟩ : BufTy).Contents (Elt F) :=
  convDense (aggregate (mulf X (alongFeatures (invSqrtDeg src))) src dst) dst W b

/-- The hidden linear map with its bias, 128 → 256. -/
def hidden (H : (⟨S50000x128, .f32⟩ : BufTy).Contents (Elt F)) (W : (⟨S128x256, .f32⟩ : BufTy).Contents (Elt F))
    (b : (⟨S256, .f32⟩ : BufTy).Contents (Elt F)) : (⟨S50000x256, .f32⟩ : BufTy).Contents (Elt F) :=
  addf (Host.dotGeneral dot_S50000x128_S128x256_S50000x256_1_0_0_1_n_n none H W)
    (broadcastInDim S50000x256 ![0, 1] bcast_S1x256_S50000x256_0_1 (broadcastInDim S1x256 ![1] bcast_S256_S1x256_1 b))

/-- x if x ≥ 0, else the slope times x, on 256 columns. -/
def leaky256 (Z : (⟨S50000x256, .f32⟩ : BufTy).Contents (Elt F)) : (⟨S50000x256, .f32⟩ : BufTy).Contents (Elt F) :=
  select (cmpf .oge Z (broadcastInDim S50000x256 ![] bcast_S_S50000x256 (constant S_ .f32 0x00000000#32))) Z
    (mulf (broadcastInDim S50000x256 ![] bcast_S_S50000x256 (id (constant S_ .f32 0x3C23D70A#32))) Z)

/-- The output linear map with its bias, 256 → 40. -/
def classes (H : (⟨S50000x256, .f32⟩ : BufTy).Contents (Elt F)) (W : (⟨S256x40, .f32⟩ : BufTy).Contents (Elt F))
    (b : (⟨S40, .f32⟩ : BufTy).Contents (Elt F)) : (⟨S50000x40, .f32⟩ : BufTy).Contents (Elt F) :=
  addf (Host.dotGeneral dot_S50000x256_S256x40_S50000x40_1_0_0_1_n_n none H W)
    (broadcastInDim S50000x40 ![0, 1] bcast_S1x40_S50000x40_0_1 (broadcastInDim S1x40 ![1] bcast_S40_S1x40_1 b))

/-- x if x ≥ 0, else the slope times x, on 40 columns. -/
def leaky40 (Z : (⟨S50000x40, .f32⟩ : BufTy).Contents (Elt F)) : (⟨S50000x40, .f32⟩ : BufTy).Contents (Elt F) :=
  select (cmpf .oge Z (broadcastInDim S50000x40 ![] bcast_S_S50000x40 (constant S_ .f32 0x00000000#32))) Z
    (mulf (broadcastInDim S50000x40 ![] bcast_S_S50000x40 (id (constant S_ .f32 0x3C23D70A#32))) Z)

/-- The whole network: two graph convolutions, then the two-layer head. -/
def network (x : (⟨S50000x128, .f32⟩ : BufTy).Contents (Elt F)) (src dst : (⟨S800000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (Wd1 : (⟨S128x256, .f32⟩ : BufTy).Contents (Elt F)) (bd1 : (⟨S256, .f32⟩ : BufTy).Contents (Elt F))
    (Wd2 : (⟨S256x40, .f32⟩ : BufTy).Contents (Elt F)) (bd2 : (⟨S40, .f32⟩ : BufTy).Contents (Elt F)) :
    (⟨S50000x40, .f32⟩ : BufTy).Contents (Elt F) :=
  leaky40 (classes (leaky256 (hidden (conv (conv x src dst W1 b1) src dst W2 b2) Wd1 bd1)) Wd2 bd2)

end Cert.Bridge

end
-- ==== Proof.KernelHost.lean ====
/-
  What the arrays the two kernel regions read hold when each region is entered, in the reference's spelling.
-/
import proofs.«132696_j51771535786035_2_alg».proof.Proof.KernelIdealFrame
import proofs.«132696_j51771535786035_2_alg».proof.Proof.KernelIdealLaunch
import proofs.«132696_j51771535786035_2_alg».proof.Proof.RefSpec
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

-- the scatter and the gather stay folded: the two programs' spellings are compared argument by argument
attribute [local irreducible] Host.scatterAdd Host.gather

/-! ## A reshape between a vector and a one-column or one-row matrix, read at an index -/

/-- A vector reshaped to a column: entry (n, 0) is the vector's entry n. -/
theorem castCol_apply {a : Nat} {α : Type} (x : (⟨1, ![a]⟩ : Shape).Idx → α)
    (h : (⟨1, ![a]⟩ : Shape).ShapeCasts ⟨2, ![a, 1]⟩) (n : Fin a) (z : Fin 1) :
    shapeCast (⟨2, ![a, 1]⟩ : Shape) x h (ix2 n z) = x (ix1 n) :=
  shapeCast_apply x h (ix2 n z) (ix1 n) (by
    rw [Shape.rowMajor_val_two, Shape.rowMajor_val_one]
    show n.val = n.val * 1 + z.val
    have := z.isLt
    omega)

/-- A vector reshaped to a row: entry (0, q) is the vector's entry q. -/
theorem castRow_apply {b : Nat} {α : Type} (x : (⟨1, ![b]⟩ : Shape).Idx → α)
    (h : (⟨1, ![b]⟩ : Shape).ShapeCasts ⟨2, ![1, b]⟩) (z : Fin 1) (q : Fin b) :
    shapeCast (⟨2, ![1, b]⟩ : Shape) x h (ix2 z q) = x (ix1 q) :=
  shapeCast_apply x h (ix2 z q) (ix1 q) (by
    rw [Shape.rowMajor_val_two, Shape.rowMajor_val_one]
    obtain rfl : z = 0 := Subsingleton.elim _ _
    show q.val = 0 * b + q.val
    omega)

/-! ## At the first region's entry -/

/-- The in-degree factor, as the first stretch of host operations leaves it. -/
theorem W1_v12 : (W1 m ρ c (Proc.devRef .tc main_v12) : S50000.Idx → EReal)
    = Cert.Bridge.invSqrtDeg (F := Ideal) (m ((c : Thread nD τ).loc main_arg2)) := by
  dsimp only [W1, W0, hostOps0]
  after_results_simp
  rfl

/-- The out-degree factor, as the first stretch of host operations leaves it. -/
theorem W1_v9 : (W1 m ρ c (Proc.devRef .tc main_v9) : S50000.Idx → EReal)
    = Cert.Bridge.invSqrtDeg (F := Ideal) (m ((c : Thread nD τ).loc main_arg1)) := by
  dsimp only [W1, W0, hostOps0]
  after_results_simp
  rfl

/-- The first convolution's aggregated rows: the format changes around the gather are the identity on the extended
    reals. -/
theorem V1_v27 : V1 m ρ c main_v27
    = Cert.Bridge.aggregate (F := Ideal)
        (mulf (F := Ideal) (s := S50000x128) (φ := .f32) (m ((c : Thread nD τ).loc main_arg0)) (Cert.Bridge.alongFeatures (F := Ideal) (Cert.Bridge.invSqrtDeg (F := Ideal) (m ((c : Thread nD τ).loc main_arg1)))))
        (m ((c : Thread nD τ).loc main_arg1)) (m ((c : Thread nD τ).loc main_arg2)) := by
  dsimp only [V1, W1, W0, hostOps0]
  after_results_simp
  rfl

/-- The in-degree factor as a column. -/
theorem V1_v29 (n : Fin 50000) :
    V1 m ρ c main_v29 (ix2 n 0) = Cert.Bridge.invSqrtDeg (F := Ideal) (m ((c : Thread nD τ).loc main_arg2)) (ix1 n) := by
  refine Eq.trans ?_ (congrFun (W1_v12 m ρ c) (ix1 n))
  dsimp only [V1, W1, W0, hostOps0]
  after_results_simp
  exact castCol_apply _ _ n 0

/-- The out-degree factor as a column. -/
theorem V1_v30 (n : Fin 50000) :
    V1 m ρ c main_v30 (ix2 n 0) = Cert.Bridge.invSqrtDeg (F := Ideal) (m ((c : Thread nD τ).loc main_arg1)) (ix1 n) := by
  refine Eq.trans ?_ (congrFun (W1_v9 m ρ c) (ix1 n))
  dsimp only [V1, W1, W0, hostOps0]
  after_results_simp
  exact castCol_apply _ _ n 0

/-- The first linear map in the narrower format: the same extended reals. -/
theorem V1_v28 : V1 m ρ c main_v28 = (m ((c : Thread nD τ).loc main_arg3)) := by
  dsimp only [V1, W1, W0, hostOps0]
  after_results_simp
  rfl

/-- The first bias as a row. -/
theorem V1_v31 (q : Fin 128) : V1 m ρ c main_v31 (ix2 0 q) = (m ((c : Thread nD τ).loc main_arg4)) (ix1 q) := by
  dsimp only [V1, W1, W0, hostOps0]
  after_results_simp
  exact castRow_apply _ _ 0 q

/-! ## At the second region's entry

The first region writes none of the argument arrays and not the in-degree factor, so the second stretch of host
operations reads them as the first stretch left them. -/

/-- Argument 1 is as launched when the first region is left. -/
theorem W2_arg1 : W2 m ρ c (Proc.devRef .tc main_arg1) = (m ((c : Thread nD τ).loc main_arg1)) := by
  rw [W2_of_ne m ρ c main_arg1 (by decide)]
  dsimp only [W1, W0, hostOps0]
  after_results_simp

/-- Argument 2 is as launched when the first region is left. -/
theorem W2_arg2 : W2 m ρ c (Proc.devRef .tc main_arg2) = (m ((c : Thread nD τ).loc main_arg2)) := by
  rw [W2_of_ne m ρ c main_arg2 (by decide)]
  dsimp only [W1, W0, hostOps0]
  after_results_simp

/-- Argument 5 is as launched when the first region is left. -/
theorem W2_arg5 : W2 m ρ c (Proc.devRef .tc main_arg5) = (m ((c : Thread nD τ).loc main_arg5)) := by
  rw [W2_of_ne m ρ c main_arg5 (by decide)]
  dsimp only [W1, W0, hostOps0]
  after_results_simp

/-- Argument 6 is as launched when the first region is left. -/
theorem W2_arg6 : W2 m ρ c (Proc.devRef .tc main_arg6) = (m ((c : Thread nD τ).loc main_arg6)) := by
  rw [W2_of_ne m ρ c main_arg6 (by decide)]
  dsimp only [W1, W0, hostOps0]
  after_results_simp

/-- Argument 7 is as launched when the first region is left. -/
theorem W2_arg7 : W2 m ρ c (Proc.devRef .tc main_arg7) = (m ((c : Thread nD τ).loc main_arg7)) := by
  rw [W2_of_ne m ρ c main_arg7 (by decide)]
  dsimp only [W1, W0, hostOps0]
  after_results_simp

/-- Argument 8 is as launched when the first region is left. -/
theorem W2_arg8 : W2 m ρ c (Proc.devRef .tc main_arg8) = (m ((c : Thread nD τ).loc main_arg8)) := by
  rw [W2_of_ne m ρ c main_arg8 (by decide)]
  dsimp only [W1, W0, hostOps0]
  after_results_simp

/-- Argument 9 is as launched when the first region is left. -/
theorem W2_arg9 : W2 m ρ c (Proc.devRef .tc main_arg9) = (m ((c : Thread nD τ).loc main_arg9)) := by
  rw [W2_of_ne m ρ c main_arg9 (by decide)]
  dsimp only [W1, W0, hostOps0]
  after_results_simp

/-- Argument 10 is as launched when the first region is left. -/
theorem W2_arg10 : W2 m ρ c (Proc.devRef .tc main_arg10) = (m ((c : Thread nD τ).loc main_arg10)) := by
  rw [W2_of_ne m ρ c main_arg10 (by decide)]
  dsimp only [W1, W0, hostOps0]
  after_results_simp

/-- The in-degree factor is as the first stretch left it when the first region is left. -/
theorem W2_v12 : (W2 m ρ c (Proc.devRef .tc main_v12) : S50000.Idx → EReal)
    = Cert.Bridge.invSqrtDeg (F := Ideal) (m ((c : Thread nD τ).loc main_arg2)) :=
  (W2_of_ne m ρ c main_v12 (by decide)).trans (W1_v12 m ρ c)

/-- The second convolution's aggregated rows, of the first region's result. -/
theorem V3_v43 : V3 m ρ c main_v43
    = Cert.Bridge.aggregate (F := Ideal) (V2 m ρ c main_v32) (m ((c : Thread nD τ).loc main_arg1)) (m ((c : Thread nD τ).loc main_arg2)) := by
  dsimp only [V3, W3, hostOps1]
  after_results_simp
  rw [W2_arg1 m ρ c, W2_arg2 m ρ c]
  rfl

/-- The in-degree factor as a column. -/
theorem V3_v47 (n : Fin 50000) :
    V3 m ρ c main_v47 (ix2 n 0) = Cert.Bridge.invSqrtDeg (F := Ideal) (m ((c : Thread nD τ).loc main_arg2)) (ix1 n) := by
  refine Eq.trans ?_ (congrFun (W2_v12 m ρ c) (ix1 n))
  dsimp only [V3, W3, hostOps1]
  after_results_simp
  exact castCol_apply _ _ n 0

/-- The second convolution's linear map in the narrower format: the same extended reals. -/
theorem V3_v44 : V3 m ρ c main_v44 = (m ((c : Thread nD τ).loc main_arg5)) := by
  dsimp only [V3, W3, hostOps1]
  after_results_simp
  rw [W2_arg5 m ρ c]
  rfl

/-- The hidden linear map in the narrower format. -/
theorem V3_v45 : V3 m ρ c main_v45 = (m ((c : Thread nD τ).loc main_arg7)) := by
  dsimp only [V3, W3, hostOps1]
  after_results_simp
  rw [W2_arg7 m ρ c]
  rfl

/-- The output linear map in the narrower format. -/
theorem V3_v46 : V3 m ρ c main_v46 = (m ((c : Thread nD τ).loc main_arg9)) := by
  dsimp only [V3, W3, hostOps1]
  after_results_simp
  rw [W2_arg9 m ρ c]
  rfl

/-- The second convolution's bias as a row. -/
theorem V3_v48 (q : Fin 128) : V3 m ρ c main_v48 (ix2 0 q) = (m ((c : Thread nD τ).loc main_arg6)) (ix1 q) := by
  dsimp only [V3, W3, hostOps1]
  after_results_simp
  rw [W2_arg6 m ρ c]
  exact castRow_apply _ _ 0 q

/-- The hidden bias as a row. -/
theorem V3_v49 (q : Fin 256) : V3 m ρ c main_v49 (ix2 0 q) = (m ((c : Thread nD τ).loc main_arg8)) (ix1 q) := by
  dsimp only [V3, W3, hostOps1]
  after_results_simp
  rw [W2_arg8 m ρ c]
  exact castRow_apply _ _ 0 q

/-- The output bias as a row. -/
theorem V3_v50 (q : Fin 40) : V3 m ρ c main_v50 (ix2 0 q) = (m ((c : Thread nD τ).loc main_arg10)) (ix1 q) := by
  dsimp only [V3, W3, hostOps1]
  after_results_simp
  rw [W2_arg10 m ρ c]
  exact castRow_apply _ _ 0 q

end Cert.KernelIdeal.Host

end
-- ==== Proof.LibBroadcastInDim2.lean ====
/-
  The host's `broadcast_in_dim` between ranks 1 and 2, read at an index given by its coordinates, for any sizes:
  a vector `[a]` as a column `[a, 1]` (dims = [0]) and as a row `[1, b]` (dims = [1]); a column `[a, 1]` along the second axis
  to `[a, b]` and a row `[1, b]` along the first axis to `[a, b]` (dims = [0, 1]).  Each is one instance of the library's
  read-at-an-index lemma for the operation, the coordinate arithmetic discharged once for all sizes.
-/
import Idealize.ShloMosaic.Lib.ValueIdx
import Idealize.ShloMosaic.Lib.Pipeline.Value

namespace Idealize.ShloMosaic.BroadcastInDim2

open Idealize.ShloMosaic Idealize.ShloMosaic.ValueIdx

variable {α : Type}

/-- A vector as a column: entry (p, 0) is the vector's entry p. -/
theorem vecToCol_apply {a : Nat} (v : (⟨1, ![a]⟩ : Shape).Idx → α)
    (h : (⟨1, ![a]⟩ : Shape).BroadcastsInDim ⟨2, ![a, 1]⟩ (![0] : Fin 1 → Fin 2)) (p : Fin a) (z : Fin 1) :
    broadcastInDim (⟨2, ![a, 1]⟩ : Shape) (![0] : Fin 1 → Fin 2) h v (ix2 p z) = v (ix1 p) :=
  broadcastInDim_apply (![0] : Fin 1 → Fin 2) h v (ix2 p z) (ix1 p) (fun d => match d with
    | ⟨0, _⟩ => by
        show p.val = if a = 1 then 0 else p.val
        by_cases ha : a = 1
        · rw [if_pos ha]; have := p.isLt; omega
        · rw [if_neg ha])

/-- A vector as a row: entry (0, q) is the vector's entry q. -/
theorem vecToRow_apply {b : Nat} (v : (⟨1, ![b]⟩ : Shape).Idx → α)
    (h : (⟨1, ![b]⟩ : Shape).BroadcastsInDim ⟨2, ![1, b]⟩ (![1] : Fin 1 → Fin 2)) (z : Fin 1) (q : Fin b) :
    broadcastInDim (⟨2, ![1, b]⟩ : Shape) (![1] : Fin 1 → Fin 2) h v (ix2 z q) = v (ix1 q) :=
  broadcastInDim_apply (![1] : Fin 1 → Fin 2) h v (ix2 z q) (ix1 q) (fun d => match d with
    | ⟨0, _⟩ => by
        show q.val = if b = 1 then 0 else q.val
        by_cases hb : b = 1
        · rw [if_pos hb]; have := q.isLt; omega
        · rw [if_neg hb])

/-- A column along the second axis: entry (p, q) is the column's entry (p, 0). -/
theorem colToMat_apply {a b : Nat} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 p (0 : Fin 1)) :=
  broadcastInDim_apply (![0, 1] : Fin 2 → Fin 2) h v (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row along the first axis: entry (p, q) is the row's entry (0, q). -/
theorem rowToMat_apply {a b : Nat} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h v (ix2 p q) = v (ix2 (0 : Fin 1) q) :=
  broadcastInDim_apply (![0, 1] : Fin 2 → Fin 2) h v (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.BroadcastInDim2
-- ==== Proof.RefDense.lean ====
/-
  The reference's dense stages read at an index, on the extended reals.  Each whole-array stage (a matrix product,
  a bias broadcast down the rows, an activation) at entry (n, q) depends only on row n of its operand: it is the
  row function of DenseSpec applied to that row.
-/
import proofs.«132696_j51771535786035_2_alg».proof.Proof.RefSpec
import proofs.«132696_j51771535786035_2_alg».proof.Proof.DenseSpec
import proofs.«132696_j51771535786035_2_alg».proof.Proof.LibBroadcastInDim2
import proofs.«132696_j51771535786035_2_alg».proof.Proof.LibPlainDot
import Idealize.ShloMosaic.Lib.IdealHost

noncomputable section

open scoped BigOperators

namespace Cert.Bridge

open Idealize.ShloMosaic Idealize.ShloMosaic.ValueIdx Idealize.ShloMosaic.BroadcastInDim2
open Cert.ReferenceIdeal Cert.ReferenceIdeal.Facts₀

/-- A per-node factor repeated along the features reads the node's factor. -/
theorem alongFeatures_apply (v : (⟨S50000, .f32⟩ : BufTy).Contents (Elt Ideal)) (n : Fin 50000) (q : Fin 128) :
    alongFeatures (F := Ideal) v (ix2 n q) = v (ix1 n) :=
  (colToMat_apply _ bcast_S50000x1_S50000x128_0_1 n q).trans (vecToCol_apply v bcast_S50000_S50000x1_0 n 0)

/-- x if x ≥ 0, else the slope times x, at an entry (256 columns). -/
theorem leaky256_apply (Z : (⟨S50000x256, .f32⟩ : BufTy).Contents (Elt Ideal)) (i : S50000x256.Idx) :
    leaky256 (F := Ideal) Z i = leaky (Z i) := by
  show Scalar.select (FloatOps.cmpf .oge (Z i)
        (broadcastInDim S50000x256 ![] bcast_S_S50000x256 (constant (F := Ideal) S_ .f32 0x00000000#32) i)) (Z i)
      (broadcastInDim S50000x256 ![] bcast_S_S50000x256 (id (constant (F := Ideal) S_ .f32 0x3C23D70A#32)) i * Z i) = _
  rw [broadcastInDim_scalar_apply, broadcastInDim_scalar_apply]
  rfl

/-- A matrix product plus a bias row broadcast down the rows, at entry (n, q): row n of the left operand through the
    linear map with bias. -/
theorem linStage_apply {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (H : FVec Ideal ⟨2, ![A, K]⟩ .f32) (W : FVec Ideal ⟨2, ![K, B]⟩ .f32) (b : FVec Ideal ⟨1, ![B]⟩ .f32)
    (n : Fin A) (q : Fin B) :
    addf (Host.dotGeneral d none H W)
        (broadcastInDim (⟨2, ![A, B]⟩ : Shape) (![0, 1] : Fin 2 → Fin 2) h2
          (broadcastInDim (⟨2, ![1, B]⟩ : Shape) (![1] : Fin 1 → Fin 2) h1 b)) (ix2 n q)
      = lin (fun k : Fin K => H (ix2 n k)) W (fun c : Fin B => b (ix1 c)) q := by
  show FloatOps.dotGeneral d none .single H W (ix2 n q)
      + broadcastInDim (⟨2, ![A, B]⟩ : Shape) (![0, 1] : Fin 2 → Fin 2) h2
          (broadcastInDim (⟨2, ![1, B]⟩ : Shape) (![1] : Fin 1 → Fin 2) h1 b) (ix2 n q) = _
  rw [dotGeneral_plain d hlc hrc hln hrn hlb hrb, rowToMat_apply, vecToRow_apply]
  rfl

/-- The hidden linear map at entry (n, h): row n through the map with bias. -/
theorem hidden_apply (H : (⟨S50000x128, .f32⟩ : BufTy).Contents (Elt Ideal)) (W : (⟨S128x256, .f32⟩ : BufTy).Contents (Elt Ideal))
    (b : (⟨S256, .f32⟩ : BufTy).Contents (Elt Ideal)) (n : Fin 50000) (h : Fin 256) :
    hidden (F := Ideal) H W b (ix2 n h) = lin (fun k : Fin 128 => H (ix2 n k)) W (fun c : Fin 256 => b (ix1 c)) h :=
  linStage_apply dot_S50000x128_S128x256_S50000x256_1_0_0_1_n_n rfl rfl rfl rfl rfl rfl
    bcast_S256_S1x256_1 bcast_S1x256_S50000x256_0_1 H W b n h

/-- The output linear map at entry (n, q): row n through the map with bias. -/
theorem classes_apply (H : (⟨S50000x256, .f32⟩ : BufTy).Contents (Elt Ideal)) (W : (⟨S256x40, .f32⟩ : BufTy).Contents (Elt Ideal))
    (b : (⟨S40, .f32⟩ : BufTy).Contents (Elt Ideal)) (n : Fin 50000) (q : Fin 40) :
    classes (F := Ideal) H W b (ix2 n q) = lin (fun k : Fin 256 => H (ix2 n k)) W (fun c : Fin 40 => b (ix1 c)) q :=
  linStage_apply dot_S50000x256_S256x40_S50000x40_1_0_0_1_n_n rfl rfl rfl rfl rfl rfl
    bcast_S40_S1x40_1 bcast_S1x40_S50000x40_0_1 H W b n q

/-- x if x ≥ 0, else the slope times x, at an entry (40 columns). -/
theorem leaky40_apply (Z : (⟨S50000x40, .f32⟩ : BufTy).Contents (Elt Ideal)) (i : S50000x40.Idx) :
    leaky40 (F := Ideal) Z i = leaky (Z i) := by
  show Scalar.select (FloatOps.cmpf .oge (Z i)
        (broadcastInDim S50000x40 ![] bcast_S_S50000x40 (constant (F := Ideal) S_ .f32 0x00000000#32) i)) (Z i)
      (broadcastInDim S50000x40 ![] bcast_S_S50000x40 (id (constant (F := Ideal) S_ .f32 0x3C23D70A#32)) i * Z i) = _
  rw [broadcastInDim_scalar_apply, broadcastInDim_scalar_apply]
  rfl

/-- A graph convolution's dense half at entry (n, q): row n of the aggregated features, scaled by node n's factor,
    through the linear map with bias, positive part. -/
theorem convDense_apply (H : (⟨S50000x128, .f32⟩ : BufTy).Contents (Elt Ideal)) (dst : (⟨S800000, .i32⟩ : BufTy).Contents (Elt Ideal))
    (W : (⟨S128x128, .f32⟩ : BufTy).Contents (Elt Ideal)) (b : (⟨S128, .f32⟩ : BufTy).Contents (Elt Ideal))
    (n : Fin 50000) (q : Fin 128) :
    convDense (F := Ideal) H dst W b (ix2 n q)
      = convRow (fun j : Fin 128 => H (ix2 n j)) (invSqrtDeg (F := Ideal) dst (ix1 n)) W (fun c : Fin 128 => b (ix1 c)) q := by
  show max (addf (Host.dotGeneral dot_S50000x128_S128x128_S50000x128_1_0_0_1_n_n none
            (mulf H (alongFeatures (F := Ideal) (invSqrtDeg (F := Ideal) dst))) W)
          (broadcastInDim S50000x128 ![0, 1] bcast_S1x128_S50000x128_0_1 (broadcastInDim S1x128 ![1] bcast_S128_S1x128_1 b))
          (ix2 n q))
        (broadcastInDim S50000x128 ![] bcast_S_S50000x128 (constant (F := Ideal) S_ .f32 0x00000000#32) (ix2 n q)) = _
  rw [linStage_apply dot_S50000x128_S128x128_S50000x128_1_0_0_1_n_n rfl rfl rfl rfl rfl rfl, broadcastInDim_scalar_apply]
  show max (lin (fun k : Fin 128 => H (ix2 n k) * alongFeatures (F := Ideal) (invSqrtDeg (F := Ideal) dst) (ix2 n k)) W
        (fun c : Fin 128 => b (ix1 c)) q) (Ideal.ofBits .f32 0x00000000#32) = _
  simp only [alongFeatures_apply]
  rfl

/-- The head at entry (n, q): row n of the convolved features through the two linear maps, each followed by the
    leaky slope. -/
theorem head_apply (G : (⟨S50000x128, .f32⟩ : BufTy).Contents (Elt Ideal)) (Wd1 : (⟨S128x256, .f32⟩ : BufTy).Contents (Elt Ideal))
    (bd1 : (⟨S256, .f32⟩ : BufTy).Contents (Elt Ideal)) (Wd2 : (⟨S256x40, .f32⟩ : BufTy).Contents (Elt Ideal))
    (bd2 : (⟨S40, .f32⟩ : BufTy).Contents (Elt Ideal)) (n : Fin 50000) (q : Fin 40) :
    leaky40 (F := Ideal) (classes (F := Ideal) (leaky256 (F := Ideal) (hidden (F := Ideal) G Wd1 bd1)) Wd2 bd2) (ix2 n q)
      = headRow (fun k : Fin 128 => G (ix2 n k)) Wd1 (fun h : Fin 256 => bd1 (ix1 h)) Wd2 (fun c : Fin 40 => bd2 (ix1 c)) q := by
  rw [leaky40_apply, classes_apply]
  simp only [leaky256_apply, hidden_apply]
  rfl

end Cert.Bridge

end
-- ==== Proof.KernelWhole.lean ====
/-
  The idealized kernel program's result as a function of its eleven arguments.

  Walking @main's fold backwards from the result buffer: the second region leaves in it the head applied to the
  second convolution's dense half of the rows it found aggregated (KernelValue's array function of the arrays at the
  region's entry); those arrays are, by the host operations between the regions, the edge aggregation of the first
  region's result, the in-degree factor as a column, and the weights and biases; the first region's result is the
  first convolution's dense half times the out-degree factor, of arrays that the first stretch of host operations
  computed from the arguments.  Entry by entry this is the reference's network: the row functions on both sides are
  the same, and the gather/scatter aggregation is applied to equal arrays.
-/
import proofs.«132696_j51771535786035_2_alg».proof.Proof.KernelRun
import proofs.«132696_j51771535786035_2_alg».proof.Proof.KernelValue
import proofs.«132696_j51771535786035_2_alg».proof.Proof.KernelHost
import proofs.«132696_j51771535786035_2_alg».proof.Proof.RefDense

set_option quotPrecheck false
set_option maxRecDepth 16384

noncomputable section

namespace Cert.KernelIdeal.Whole

open Cert.KernelIdeal Cert.KernelIdeal.Gen Cert.KernelIdeal.Val Cert.KernelIdeal.Host Cert.Bridge
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)

/-- After the first region its result array holds the first convolution of the features, each row times its
    node's out-degree factor: what the second aggregation gathers from. -/
theorem first_result : V2 m ρ c main_v32
    = mulf (F := Ideal) (s := S50000x128) (φ := .f32) (conv (F := Ideal) A0 A1 A2 A3 A4) (alongFeatures (F := Ideal) (invSqrtDeg (F := Ideal) A1)) := by
  show W2 m ρ c (Proc.devRef .tc (Pipeline.arrRef spec0 5)) = _
  rw [W2_arr m ρ c 5, final0]
  funext i
  obtain ⟨n, q, rfl⟩ : ∃ (n : Fin 50000) (q : Fin 128), i = ix2 n q := ⟨i 0, i 1, eq_ix2 i⟩
  show convRow (fun j : Fin 128 => V1 m ρ c main_v27 (ix2 n j)) (V1 m ρ c main_v29 (ix2 n 0)) (V1 m ρ c main_v28)
      (fun c' : Fin 128 => V1 m ρ c main_v31 (ix2 0 c')) q * V1 m ρ c main_v30 (ix2 n 0) = _
  rw [mulf_apply, alongFeatures_apply]
  unfold conv
  have e31 : (fun c' : Fin 128 => V1 m ρ c main_v31 (ix2 0 c')) = fun c' : Fin 128 => A4 (ix1 c') :=
    funext fun c' => V1_v31 m ρ c c'
  rw [convDense_apply, V1_v29, V1_v30, V1_v28, V1_v27, e31]

/-- Entry (n, k) of a graph convolution: the dense row function of row n of the aggregated, out-degree-scaled input. -/
theorem conv_apply (X : (⟨Cert.ReferenceIdeal.S50000x128, .f32⟩ : BufTy).Contents (Elt Ideal))
    (src dst : (⟨Cert.ReferenceIdeal.S800000, .i32⟩ : BufTy).Contents (Elt Ideal))
    (W : (⟨Cert.ReferenceIdeal.S128x128, .f32⟩ : BufTy).Contents (Elt Ideal)) (b : (⟨Cert.ReferenceIdeal.S128, .f32⟩ : BufTy).Contents (Elt Ideal))
    (n : Fin 50000) (k : Fin 128) :
    conv (F := Ideal) X src dst W b (ix2 n k)
      = convRow (fun j : Fin 128 => aggregate (F := Ideal) (mulf (F := Ideal) (s := Cert.ReferenceIdeal.S50000x128) (φ := .f32) X (alongFeatures (F := Ideal) (invSqrtDeg (F := Ideal) src))) src dst (ix2 n j))
          (invSqrtDeg (F := Ideal) dst (ix1 n)) W (fun c' : Fin 128 => b (ix1 c')) k := by
  unfold conv
  exact convDense_apply _ dst W b n k

/-- THE KERNEL'S VALUE: after the second region the result array holds the network of the eleven arguments. -/
theorem result_eq : W4 m ρ c (Proc.devRef .tc main_v51)
    = network (F := Ideal) A0 A1 A2 A3 A4 A5 A6 A7 A8 A9 A10 := by
  show W4 m ρ c (Proc.devRef .tc (Pipeline.arrRef spec1 8)) = _
  rw [W4_arr m ρ c 8, final1]
  funext i
  obtain ⟨n, q, rfl⟩ : ∃ (n : Fin 50000) (q : Fin 40), i = ix2 n q := ⟨i 0, i 1, eq_ix2 i⟩
  show headRow (fun k : Fin 128 => convRow (fun j : Fin 128 => V3 m ρ c main_v43 (ix2 n j)) (V3 m ρ c main_v47 (ix2 n 0)) (V3 m ρ c main_v44)
      (fun c' : Fin 128 => V3 m ρ c main_v48 (ix2 0 c')) k) (V3 m ρ c main_v45) (fun h : Fin 256 => V3 m ρ c main_v49 (ix2 0 h))
      (V3 m ρ c main_v46) (fun c' : Fin 40 => V3 m ρ c main_v50 (ix2 0 c')) q = _
  unfold network
  rw [head_apply]
  have e48 : (fun c' : Fin 128 => V3 m ρ c main_v48 (ix2 0 c')) = fun c' : Fin 128 => A6 (ix1 c') :=
    funext fun c' => V3_v48 m ρ c c'
  have e49 : (fun h : Fin 256 => V3 m ρ c main_v49 (ix2 0 h)) = fun h : Fin 256 => A8 (ix1 h) :=
    funext fun h => V3_v49 m ρ c h
  have e50 : (fun c' : Fin 40 => V3 m ρ c main_v50 (ix2 0 c')) = fun c' : Fin 40 => A10 (ix1 c') :=
    funext fun c' => V3_v50 m ρ c c'
  have ek : (fun k : Fin 128 => conv (F := Ideal) (conv (F := Ideal) A0 A1 A2 A3 A4) A1 A2 A5 A6 (ix2 n k))
      = fun k : Fin 128 => convRow (fun j : Fin 128 => V3 m ρ c main_v43 (ix2 n j)) (V3 m ρ c main_v47 (ix2 n 0)) (V3 m ρ c main_v44)
          (fun c' : Fin 128 => V3 m ρ c main_v48 (ix2 0 c')) k :=
    funext fun k => by
      rw [conv_apply, e48, V3_v47, V3_v44, V3_v43, first_result]
  rw [ek, e49, e50, V3_v45, V3_v46]

end Cert.KernelIdeal.Whole

end
-- ==== Proof.RefRunOps.lean ====
/-
  The reference program's operations in the order it runs them, each call of one of its functions written out as
  the function's own operations over the buffers of that call, and the statement that every execution of the
  program terminates with each buffer holding the fold of these operations over the contents it started from.
-/
import proofs.«132696_j51771535786035_2_alg».proof.Proof.RefSpec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The operations of the program's first sixty statements, in order; the call of the positive part is written
    out as its three: the zero, the zero repeated over the array, the maximum with it. -/
abbrev ops0 : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (maximumf : (⟨S50000, .f32⟩ : BufTy).Contents (Elt F) → (⟨S50000, .f32⟩ : BufTy).Contents (Elt F) → (⟨S50000, .f32⟩ : BufTy).Contents (Elt F)),
    unary main_v8 main_v9 (Host.rsqrt : (⟨S50000, .f32⟩ : BufTy).Contents (Elt F) → (⟨S50000, .f32⟩ : BufTy).Contents (Elt F)),
    nullary main_cst_3 (constant S_ .f32 0x3F800000#32),
    unary main_cst_3 main_v10 (broadcastInDim S50000 ![] bcast_S_S50000 : (⟨S_, .f32⟩ : BufTy).Contents (Elt F) → (⟨S50000, .f32⟩ : BufTy).Contents (Elt F)),
    binary main_v6 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    unary main_v9 main_v13 (broadcastInDim S50000x1 ![0] bcast_S50000_S50000x1_0 : (⟨S50000, .f32⟩ : BufTy).Contents (Elt F) → (⟨S50000x1, .f32⟩ : BufTy).Contents (Elt F)),
    unary main_v13 main_v14 (broadcastInDim S50000x128 ![0, 1] bcast_S50000x1_S50000x128_0_1 : (⟨S50000x1, .f32⟩ : BufTy).Contents (Elt F) → (⟨S50000x128, .f32⟩ : BufTy).Contents (Elt F)),
    binary main_arg0 main_v14 main_v15 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_arg1 main_v16 main_v17 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v18 (broadcastInDim S800000 ![] bcast_S_S800000 : (⟨S_, .i32⟩ : BufTy).Contents (Elt F) → (⟨S800000, .i32⟩ : BufTy).Contents (Elt F)),
    binary main_arg1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_arg1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_5 (constant S_ .f32 0x00000000#32),
    unary main_cst_5 main_v23 (broadcastInDim S50000x128 ![] bcast_S_S50000x128 : (⟨S_, .f32⟩ : BufTy).Contents (Elt F) → (⟨S50000x128, .f32⟩ : BufTy).Contents (Elt F)),
    unary main_arg2 main_v24 (broadcastInDim S800000x1 ![0] bcast_S800000_S800000x1_0 : (⟨S800000, .i32⟩ : BufTy).Contents (Elt F) → (⟨S800000x1, .i32⟩ : BufTy).Contents (Elt F)),
    ternary main_v23 main_v24 main_v22 main_v25 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v12 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v25 main_v27 main_v28 (mulf : (⟨S50000x128, .f32⟩ : BufTy).Contents (Elt F) → (⟨S50000x128, .f32⟩ : BufTy).Contents (Elt F) → (⟨S50000x128, .f32⟩ : BufTy).Contents (Elt F)),
    binary main_v28 main_arg3 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v29 main_v31 main_v32 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v32) main_call0.v0 main_call0.v1 maximumf,
    nullary main_cst_6 (constant S_ .f32 0x3F800000#32),
    unary main_cst_6 main_v34 (broadcastInDim S800000 ![] bcast_S_S800000 : (⟨S_, .f32⟩ : BufTy).Contents (Elt F) → (⟨S800000, .f32⟩ : BufTy).Contents (Elt F)),
    nullary main_cst_7 (constant S_ .f32 0x00000000#32),
    unary main_cst_7 main_v35 (broadcastInDim S50000 ![] bcast_S_S50000 : (⟨S_, .f32⟩ : BufTy).Contents (Elt F) → (⟨S50000, .f32⟩ : BufTy).Contents (Elt F)),
    unary main_arg1 main_v36 (broadcastInDim S800000x1 ![0] bcast_S800000_S800000x1_0 : (⟨S800000, .i32⟩ : BufTy).Contents (Elt F) → (⟨S800000x1, .i32⟩ : BufTy).Contents (Elt F)),
    ternary main_v35 main_v36 main_v34 main_v37 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_8 (constant S_ .f32 0x00000000#32),
    unary main_cst_8 main_v38 (broadcastInDim S50000 ![] bcast_S_S50000 : (⟨S_, .f32⟩ : BufTy).Contents (Elt F) → (⟨S50000, .f32⟩ : BufTy).Contents (Elt F)),
    unary main_arg2 main_v39 (broadcastInDim S800000x1 ![0] bcast_S800000_S800000x1_0 : (⟨S800000, .i32⟩ : BufTy).Contents (Elt F) → (⟨S800000x1, .i32⟩ : BufTy).Contents (Elt F)),
    ternary main_v38 main_v39 main_v34 main_v40 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v41 (broadcastInDim S50000 ![] bcast_S_S50000 : (⟨S_, .f32⟩ : BufTy).Contents (Elt F) → (⟨S50000, .f32⟩ : BufTy).Contents (Elt F)),
    binary main_v37 main_v41 main_v42 (maximumf : (⟨S50000, .f32⟩ : BufTy).Contents (Elt F) → (⟨S50000, .f32⟩ : BufTy).Contents (Elt F) → (⟨S50000, .f32⟩ : BufTy).Contents (Elt F)),
    unary main_v42 main_v43 (Host.rsqrt : (⟨S50000, .f32⟩ : BufTy).Contents (Elt F) → (⟨S50000, .f32⟩ : BufTy).Contents (Elt F)),
    nullary main_cst_10 (constant S_ .f32 0x3F800000#32),
    unary main_cst_10 main_v44 (broadcastInDim S50000 ![] bcast_S_S50000 : (⟨S_, .f32⟩ : BufTy).Contents (Elt F) → (⟨S50000, .f32⟩ : BufTy).Contents (Elt F)),
    binary main_v40 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (Host.rsqrt : (⟨S50000, .f32⟩ : BufTy).Contents (Elt F) → (⟨S50000, .f32⟩ : BufTy).Contents (Elt F)) ]

/-- The operations of the remaining statements, in order; the second positive part is written out as before, and
    each of the two calls of x ↦ x if x ≥ 0 else slope · x as its seven: the zero, the zero repeated, the comparison
    with it, the slope as it is, the slope repeated, the product, and the choice between the argument and the
    product. -/
abbrev ops1 : List (HloOp τ sig (Elt F)) :=
  [ unary main_v43 main_v47 (broadcastInDim S50000x1 ![0] bcast_S50000_S50000x1_0 : (⟨S50000, .f32⟩ : BufTy).Contents (Elt F) → (⟨S50000x1, .f32⟩ : BufTy).Contents (Elt F)),
    unary main_v47 main_v48 (broadcastInDim S50000x128 ![0, 1] bcast_S50000x1_S50000x128_0_1 : (⟨S50000x1, .f32⟩ : BufTy).Contents (Elt F) → (⟨S50000x128, .f32⟩ : BufTy).Contents (Elt F)),
    binary main_v33 main_v48 main_v49 (mulf : (⟨S50000x128, .f32⟩ : BufTy).Contents (Elt F) → (⟨S50000x128, .f32⟩ : BufTy).Contents (Elt F) → (⟨S50000x128, .f32⟩ : BufTy).Contents (Elt F)),
    nullary main_c_11 (constantI S_ 32 0#32),
    unary main_c_11 main_v50 (broadcastInDim S800000 ![] bcast_S_S800000 : (⟨S_, .i32⟩ : BufTy).Contents (Elt F) → (⟨S800000, .i32⟩ : BufTy).Contents (Elt F)),
    binary main_arg1 main_v50 main_v51 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v52 (broadcastInDim S800000 ![] bcast_S_S800000 : (⟨S_, .i32⟩ : BufTy).Contents (Elt F) → (⟨S800000, .i32⟩ : BufTy).Contents (Elt F)),
    binary main_arg1 main_v52 main_v53 (addi : (⟨S800000, .i32⟩ : BufTy).Contents (Elt F) → (⟨S800000, .i32⟩ : BufTy).Contents (Elt F) → (⟨S800000, .i32⟩ : BufTy).Contents (Elt F)),
    ternary main_v51 main_v53 main_arg1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v54 main_v55 (broadcastInDim S800000x1 ![0] bcast_S800000_S800000x1_0 : (⟨S800000, .i32⟩ : BufTy).Contents (Elt F) → (⟨S800000x1, .i32⟩ : BufTy).Contents (Elt F)),
    binary main_v49 main_v55 main_v56 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_13 (constant S_ .f32 0x00000000#32),
    unary main_cst_13 main_v57 (broadcastInDim S50000x128 ![] bcast_S_S50000x128 : (⟨S_, .f32⟩ : BufTy).Contents (Elt F) → (⟨S50000x128, .f32⟩ : BufTy).Contents (Elt F)),
    unary main_arg2 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v46 main_v60 (broadcastInDim S50000x1 ![0] bcast_S50000_S50000x1_0 : (⟨S50000, .f32⟩ : BufTy).Contents (Elt F) → (⟨S50000x1, .f32⟩ : BufTy).Contents (Elt F)),
    unary main_v60 main_v61 (broadcastInDim S50000x128 ![0, 1] bcast_S50000x1_S50000x128_0_1 : (⟨S50000x1, .f32⟩ : BufTy).Contents (Elt F) → (⟨S50000x128, .f32⟩ : BufTy).Contents (Elt F)),
    binary main_v59 main_v61 main_v62 (mulf : (⟨S50000x128, .f32⟩ : BufTy).Contents (Elt F) → (⟨S50000x128, .f32⟩ : BufTy).Contents (Elt F) → (⟨S50000x128, .f32⟩ : BufTy).Contents (Elt F)),
    binary main_v62 main_arg5 main_v63 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v66) main_call1.v0 main_call1.v1 maximumf,
    binary main_v67 main_arg7 main_v68 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg8 main_v69 (broadcastInDim S1x256 ![1] bcast_S256_S1x256_1 : (⟨S256, .f32⟩ : BufTy).Contents (Elt F) → (⟨S1x256, .f32⟩ : BufTy).Contents (Elt F)),
    unary main_v69 main_v70 (broadcastInDim S50000x256 ![0, 1] bcast_S1x256_S50000x256_0_1 : (⟨S1x256, .f32⟩ : BufTy).Contents (Elt F) → (⟨S50000x256, .f32⟩ : BufTy).Contents (Elt F)),
    binary main_v68 main_v70 main_v71 (addf : (⟨S50000x256, .f32⟩ : BufTy).Contents (Elt F) → (⟨S50000x256, .f32⟩ : BufTy).Contents (Elt F) → (⟨S50000x256, .f32⟩ : BufTy).Contents (Elt F)),
    nullary main_cst_14 (constant S_ .f32 0x3C23D70A#32),
    TRef.nullary main_call2.cst (constant S_ .f32 0x00000000#32),
    TRef.unary main_call2.cst main_call2.v0 (broadcastInDim S50000x256 ![] bcast_S_S50000x256),
    TRef.binary (.of main_v71) main_call2.v0 main_call2.v1 (cmpf .oge),
    TRef.unary (.of main_cst_14) main_call2.v2 id,
    TRef.unary main_call2.v2 main_call2.v3 (broadcastInDim S50000x256 ![] bcast_S_S50000x256),
    TRef.binary main_call2.v3 (.of main_v71) main_call2.v4 mulf,
    TRef.ternary main_call2.v1 (.of main_v71) main_call2.v4 main_call2.call0.v0 select,
    binary main_v72 main_arg9 main_v73 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg10 main_v74 (broadcastInDim S1x40 ![1] bcast_S40_S1x40_1 : (⟨S40, .f32⟩ : BufTy).Contents (Elt F) → (⟨S1x40, .f32⟩ : BufTy).Contents (Elt F)),
    unary main_v74 main_v75 (broadcastInDim S50000x40 ![0, 1] bcast_S1x40_S50000x40_0_1 : (⟨S1x40, .f32⟩ : BufTy).Contents (Elt F) → (⟨S50000x40, .f32⟩ : BufTy).Contents (Elt F)),
    binary main_v73 main_v75 main_v76 (addf : (⟨S50000x40, .f32⟩ : BufTy).Contents (Elt F) → (⟨S50000x40, .f32⟩ : BufTy).Contents (Elt F) → (⟨S50000x40, .f32⟩ : BufTy).Contents (Elt F)),
    nullary main_cst_15 (constant S_ .f32 0x3C23D70A#32),
    TRef.nullary main_call3.cst (constant S_ .f32 0x00000000#32),
    TRef.unary main_call3.cst main_call3.v0 (broadcastInDim S50000x40 ![] bcast_S_S50000x40),
    TRef.binary (.of main_v76) main_call3.v0 main_call3.v1 (cmpf .oge),
    TRef.unary (.of main_cst_15) main_call3.v2 id,
    TRef.unary main_call3.v2 main_call3.v3 (broadcastInDim S50000x40 ![] bcast_S_S50000x40),
    TRef.binary main_call3.v3 (.of main_v76) main_call3.v4 mulf,
    TRef.ternary main_call3.v1 (.of main_v76) main_call3.v4 main_call3.call0.v0 select ]

/-- Every operation of the program, in order. -/
abbrev ops : List (HloOp τ sig (Elt F)) := ops0 ++ ops1

-- both sides are the same chain of steps once the called function's definition is opened at its call
set_option maxRecDepth 8192 in
/-- The first window is the straight line of its operations. -/
theorem part0_eq (c : Dev nD) : main_part0 (F := F) c = seq ops0 := rfl

set_option maxRecDepth 8192 in
/-- The second window is the straight line of its operations. -/
theorem part1_eq (c : Dev nD) : main_part1 (F := F) c = seq ops1 := rfl

/-- The program is the straight line of all its operations: its two windows one after the other. -/
theorem main_eq (c : Dev nD) : main (F := F) c = seq ops := by
  rw [seq_append, ← part0_eq c, ← part1_eq c]
  rfl

/-- The fold of two lists one after the other is the second's fold of the first's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., unary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., unary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., unary_bufs_sub ..⟩

theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

/-- Every operation touches buffers of the device only. -/
theorem ops_sub : (ops : List (HloOp τ sig (Elt F))).Forall fun op => op.bufs ⊆ tcRefs τ sig :=
  List.forall_iff_forall_mem.mpr fun op h =>
    (List.mem_append.mp h).elim (List.forall_iff_forall_mem.mp ops0_sub op) (List.forall_iff_forall_mem.mp ops1_sub op)

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- Every operation determines what it writes. -/
theorem ops_fresh : ∀ op ∈ (ops : List (HloOp τ sig (Elt F))), op.fresh = ∅ := fun op h =>
  (List.mem_append.mp h).elim (ops0_fresh op) (ops1_fresh op)

/-- At the compiled mesh, for any float values, from any memory with zero counters: every weakly fair execution of the
    program terminates, and every final state has each buffer of the device at the operations' fold over the contents
    the device started from. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRun.lean ====
/-
  What the fold of the reference program's operations holds at the buffers a reader cares about: at each of the
  eleven arguments, the contents the device started from; at the result, the network of RefSpec applied to the
  eleven arguments' starting contents; and the two read together with the program's run: every execution ends
  with the result buffer at the network of the arguments as they were in the starting memory, the arguments unchanged.
-/
import proofs.«132696_j51771535786035_2_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-! No operation writes an argument's buffer: the fold leaves each at the contents it started from. -/

theorem arg0_eq (V : Valuation τ sig (Elt F)) :
    after ops V (main_arg0 : DevRef τ sig) = V (main_arg0 : DevRef τ sig) := by
  rw [show (ops : List (HloOp τ sig (Elt F))) = ops0 ++ ops1 from rfl, after_append]
  unfold ops0 ops1
  after_results_simp

theorem arg1_eq (V : Valuation τ sig (Elt F)) :
    after ops V (main_arg1 : DevRef τ sig) = V (main_arg1 : DevRef τ sig) := by
  rw [show (ops : List (HloOp τ sig (Elt F))) = ops0 ++ ops1 from rfl, after_append]
  unfold ops0 ops1
  after_results_simp

theorem arg2_eq (V : Valuation τ sig (Elt F)) :
    after ops V (main_arg2 : DevRef τ sig) = V (main_arg2 : DevRef τ sig) := by
  rw [show (ops : List (HloOp τ sig (Elt F))) = ops0 ++ ops1 from rfl, after_append]
  unfold ops0 ops1
  after_results_simp

theorem arg3_eq (V : Valuation τ sig (Elt F)) :
    after ops V (main_arg3 : DevRef τ sig) = V (main_arg3 : DevRef τ sig) := by
  rw [show (ops : List (HloOp τ sig (Elt F))) = ops0 ++ ops1 from rfl, after_append]
  unfold ops0 ops1
  after_results_simp

theorem arg4_eq (V : Valuation τ sig (Elt F)) :
    after ops V (main_arg4 : DevRef τ sig) = V (main_arg4 : DevRef τ sig) := by
  rw [show (ops : List (HloOp τ sig (Elt F))) = ops0 ++ ops1 from rfl, after_append]
  unfold ops0 ops1
  after_results_simp

theorem arg5_eq (V : Valuation τ sig (Elt F)) :
    after ops V (main_arg5 : DevRef τ sig) = V (main_arg5 : DevRef τ sig) := by
  rw [show (ops : List (HloOp τ sig (Elt F))) = ops0 ++ ops1 from rfl, after_append]
  unfold ops0 ops1
  after_results_simp

theorem arg6_eq (V : Valuation τ sig (Elt F)) :
    after ops V (main_arg6 : DevRef τ sig) = V (main_arg6 : DevRef τ sig) := by
  rw [show (ops : List (HloOp τ sig (Elt F))) = ops0 ++ ops1 from rfl, after_append]
  unfold ops0 ops1
  after_results_simp

theorem arg7_eq (V : Valuation τ sig (Elt F)) :
    after ops V (main_arg7 : DevRef τ sig) = V (main_arg7 : DevRef τ sig) := by
  rw [show (ops : List (HloOp τ sig (Elt F))) = ops0 ++ ops1 from rfl, after_append]
  unfold ops0 ops1
  after_results_simp

theorem arg8_eq (V : Valuation τ sig (Elt F)) :
    after ops V (main_arg8 : DevRef τ sig) = V (main_arg8 : DevRef τ sig) := by
  rw [show (ops : List (HloOp τ sig (Elt F))) = ops0 ++ ops1 from rfl, after_append]
  unfold ops0 ops1
  after_results_simp

theorem arg9_eq (V : Valuation τ sig (Elt F)) :
    after ops V (main_arg9 : DevRef τ sig) = V (main_arg9 : DevRef τ sig) := by
  rw [show (ops : List (HloOp τ sig (Elt F))) = ops0 ++ ops1 from rfl, after_append]
  unfold ops0 ops1
  after_results_simp

theorem arg10_eq (V : Valuation τ sig (Elt F)) :
    after ops V (main_arg10 : DevRef τ sig) = V (main_arg10 : DevRef τ sig) := by
  rw [show (ops : List (HloOp τ sig (Elt F))) = ops0 ++ ops1 from rfl, after_append]
  unfold ops0 ops1
  after_results_simp

-- the gather and the two scattered sums are kept folded: the equation compares their operands and never looks inside them
attribute [local irreducible] Host.gather Host.scatterAdd in
set_option maxRecDepth 8192 in
set_option maxHeartbeats 4000000 in
/-- The fold at the result buffer is the network of the arguments' starting contents: each operation's result is
    rewritten at the buffer it writes to its function applied to what its operands hold, and at every other buffer
    to what was there, until only the arguments' contents are read; what remains is the network's own term, stage by
    stage (both degree vectors are computed a second time for the second convolution, by the same operations on the
    same arguments). -/
theorem out_eq (V : Valuation τ sig (Elt F)) : after ops V (main_v77 : DevRef τ sig)
    = Cert.Bridge.network (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [show (ops : List (HloOp τ sig (Elt F))) = ops0 ++ ops1 from rfl, after_append]
  unfold ops0 ops1
  after_results_simp
  rfl

/-- At the compiled mesh, for any float values, from any memory with zero counters: every weakly fair execution of the
    program terminates with the result buffer at the network of the arguments' contents in that memory, and with
    each argument's buffer unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = Cert.Bridge.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10) :=
  (θ_run defs _ _).mono (fun _ h c => ⟨(h c main_v77).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.lean ====
/-
  The certificate: a two-layer graph convolution network with a two-layer head, as a Pallas program of two regions
  among host operations, against its jnp reference.

  Both programs compute, on the extended reals, the same function of the eleven arguments (RefSpec's `network`):
  out- and in-degrees by scatter-adding ones at the edges' ends; each convolution scales a node's row by
  (max(out-degree, 1))^(-1/2), sums the sources' rows into the targets, scales by (max(in-degree, 1))^(-1/2), applies
  the linear map, the bias and the positive part; the head is two linear maps with biases, each followed by the leaky
  slope.  The kernel program differs only in where the arithmetic runs and in format changes that are the identity on
  the extended reals: the dense half of each convolution, and the head, run in regions over ten blocks of 5000 nodes,
  each block a restriction of one array function (KernelValue); the host operations around the regions are the
  reference's own (KernelHost); and the reference's run ends at `network` of its arguments (RefRun).  No algebraic
  law is needed beyond reading both sides entry by entry (KernelWhole), so the precondition is never opened.

  The three frames: the two kernel programs' are the launch of their segments (host stretch, region, host stretch,
  region) with every region's body run on whole blocks; the reference's is its run with the result forgotten.  The
  idealization rewrote nothing, so what it preserves is trivial.
-/
import proofs.«132696_j51771535786035_2_alg».proof.Defs
import proofs.«132696_j51771535786035_2_alg».proof.Proof.Gen.Kernel
import proofs.«132696_j51771535786035_2_alg».proof.Proof.Gen.KernelIdeal
import proofs.«132696_j51771535786035_2_alg».proof.Proof.Gen.ReferenceIdeal
import proofs.«132696_j51771535786035_2_alg».proof.Proof.Gen.Pre_finite_inputs
import proofs.«132696_j51771535786035_2_alg».proof.Proof.KernelFrame
import proofs.«132696_j51771535786035_2_alg».proof.Proof.KernelIdealFrame
import proofs.«132696_j51771535786035_2_alg».proof.Proof.KernelRun
import proofs.«132696_j51771535786035_2_alg».proof.Proof.KernelWhole
import proofs.«132696_j51771535786035_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs end with the network of the arguments in their
    result arrays: the kernel program by its run read back through its two regions, the reference by its run. -/
theorem algebraic : Cert.algebraic_KernelIdeal_ReferenceIdeal := by
  intro m ρ m' ρ' _ hagree
  refine ⟨fun c => Cert.Bridge.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Whole.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
